-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024 : Shape := ⟨2, ![128, 1024]⟩
abbrev S1024x1024 : Shape := ⟨2, ![1024, 1024]⟩
abbrev S_ : Shape := ⟨0, ![]⟩
abbrev S128x1x1024 : Shape := ⟨3, ![128, 1, 1024]⟩
abbrev S1x1024x1024 : Shape := ⟨3, ![1, 1024, 1024]⟩
abbrev S128x1024x1024 : Shape := ⟨3, ![128, 1024, 1024]⟩

class Facts : Prop where
  bcast_S_S128x1024 : S_.BroadcastsInDim S128x1024 (![] : Fin 0 → Fin S128x1024.rank)
  bcast_S128x1024_S128x1x1024_0_2 : S128x1024.BroadcastsInDim S128x1x1024 (![0, 2] : Fin 2 → Fin S128x1x1024.rank)
  bcast_S1024x1024_S1x1024x1024_1_2 : S1024x1024.BroadcastsInDim S1x1024x1024 (![1, 2] : Fin 2 → Fin S1x1024x1024.rank)
  bcast_S128x1x1024_S128x1024x1024_0_1_2 : S128x1x1024.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d2 : S128x1024x1024.ReducesTo [2] S128x1024
  h_S_ : 0 < S_.numel
  reducesTo_S128x1024_S_d0_1 : S128x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg2 : FVec F S1024x1024 .f32) (main_v12 : FVec F S128x1024 .f32) (main_v16 : IVec S_ 1) (main_v17 : FVec F S128x1024 .f32) (main_v18 : FVec F S128x1024 .f32) : IVec S_ 1 :=
  let main_v19 : IVec S128x1024 1 := cmpf .olt main_v17 main_v18
  let main_c_3 : IVec S_ 1 := constantI S_ 1 1#1
  let main_v20 : IVec S_ 1 := (fun x v => Host.reduce IntOp.andi x v reducesTo_S128x1024_S_d0_1 h_S_) main_v19 main_c_3
  let main_v21 : IVec S_ 1 := andi main_v16 main_v20
  let main_v22 : FVec F S1024x1024 .f32 := Host.absf main_arg2
  let main_cst_4 : FVec F S_ .f32 := constant S_ .f32 0x7F800000#32
  let main_v23 : FVec F S1024x1024 .f32 := broadcastInDim S1024x1024 ![] bcast_S_S1024x1024 main_cst_4
  let main_v24 : IVec S1024x1024 1 := cmpf .olt main_v22 main_v23
  let main_c_5 : IVec S_ 1 := constantI S_ 1 1#1
  let main_v25 : IVec S_ 1 := (fun x v => Host.reduce IntOp.andi x v reducesTo_S1024x1024_S_d0_1 h_S_) main_v24 main_c_5
  let main_v26 : IVec S_ 1 := andi main_v21 main_v25
  let main_cst_6 : FVec F S_ .f32 := constant S_ .f32 0x00000000#32
  let main_v27 : FVec F S128x1024 .f32 := broadcastInDim S128x1024 ![] bcast_S_S128x1024 main_cst_6
  let main_v28 : IVec S128x1024 1 := cmpf .ogt main_v12 main_v27
  let main_c_7 : IVec S_ 1 := constantI S_ 1 1#1
  let main_v29 : IVec S_ 1 := (fun x v => Host.reduce IntOp.andi x v reducesTo_S128x1024_S_d0_1 h_S_) main_v28 main_c_7
  let main_v30 : IVec S_ 1 := andi main_v26 main_v29
  let main_cst_8 : FVec F S_ .f32 := constant S_ .f32 0x3F800000#32
  let main_v31 : FVec F S128x1024 .f32 := broadcastInDim S128x1024 ![] bcast_S_S128x1024 main_cst_8
  let main_v32 : IVec S128x1024 1 := cmpf .olt main_v12 main_v31
  let main_c_9 : IVec S_ 1 := constantI S_ 1 1#1
  let main_v33 : IVec S_ 1 := (fun x v => Host.reduce IntOp.andi x v reducesTo_S128x1024_S_d0_1 h_S_) main_v32 main_c_9
  let main_v34 : IVec S_ 1 := andi main_v30 main_v33
  main_v34

def fn {F : FTy → Type} [FloatOps F] (main_arg0 : FVec F S128x1024 .f32) (main_arg1 : FVec F S128x1024 .f32) (main_arg2 : FVec F S1024x1024 .f32) : IVec S_ 1 :=
  let main_cst : FVec F S_ .f32 := constant S_ .f32 0x3F800000#32
  let main_v0 : FVec F S128x1024 .f32 := broadcastInDim S128x1024 ![] bcast_S_S128x1024 main_cst
  let main_v1 : FVec F S128x1024 .f32 := subf main_v0 main_arg1
  let main_v2 : FVec F S128x1024 .f32 := mulf main_v1 main_arg0
  let main_v3 : FVec F S128x1024 .f32 := mulf main_arg0 main_arg0
  let main_v4 : FVec F S128x1024 .f32 := mulf main_v3 main_arg1
  let main_v5 : FVec F S128x1x1024 .f32 := broadcastInDim S128x1x1024 ![0, 2] bcast_S128x1024_S128x1x1024_0_2 main_v4
  let main_v6 : FVec F S1x1024x1024 .f32 := broadcastInDim S1x1024x1024 ![1, 2] bcast_S1024x1024_S1x1024x1024_1_2 main_arg2
  let main_v7 : FVec F S128x1024x1024 .f32 := broadcastInDim S128x1024x1024 ![0, 1, 2] bcast_S128x1x1024_S128x1024x1024_0_1_2 main_v5
  let main_v8 : FVec F S128x1024x1024 .f32 := broadcastInDim S128x1024x1024 ![0, 1, 2] bcast_S1x1024x1024_S128x1024x1024_0_1_2 main_v6
  let main_v9 : FVec F S128x1024x1024 .f32 := mulf main_v7 main_v8
  let main_cst_0 : FVec F S_ .f32 := constant S_ .f32 0xFF800000#32
  let main_v10 : FVec F S128x1024 .f32 := (fun x v => Host.reduce FloatOps.maximumf x v reducesTo_S128x1024x1024_S128x1024_d2 h_S_) main_v9 main_cst_0
  let main_v11 : FVec F S128x1024 .f32 := mulf main_arg1 main_v10
  let main_v12 : FVec F S128x1024 .f32 := addf main_v2 main_v11
  let main_v13 : FVec F S128x1024 .f32 := Host.absf main_arg0
  let main_cst_1 : FVec F S_ .f32 := constant S_ .f32 0x7F800000#32
  let main_v14 : FVec F S128x1024 .f32 := broadcastInDim S128x1024 ![] bcast_S_S128x1024 main_cst_1
  let main_v15 : IVec S128x1024 1 := cmpf .olt main_v13 main_v14
  let main_c : IVec S_ 1 := constantI S_ 1 1#1
  let main_v16 : IVec S_ 1 := (fun x v => Host.reduce IntOp.andi x v reducesTo_S128x1024_S_d0_1 h_S_) main_v15 main_c
  let main_v17 : FVec F S128x1024 .f32 := Host.absf main_arg1
  let main_cst_2 : FVec F S_ .f32 := constant S_ .f32 0x7F800000#32
  let main_v18 : FVec F S128x1024 .f32 := broadcastInDim S128x1024 ![] bcast_S_S128x1024 main_cst_2
  fn_part1 (F := F) main_arg2 main_v12 main_v16 main_v17 main_v18
-- ==== Kernel.lean ====
abbrev S128x1024 : Shape := ⟨2, ![128, 1024]⟩
abbrev S1024x1024 : Shape := ⟨2, ![1024, 1024]⟩
abbrev S1024 : Shape := ⟨1, ![1024]⟩
abbrev S128 : Shape := ⟨1, ![128]⟩
abbrev S128x128x128 : Shape := ⟨3, ![128, 128, 128]⟩
abbrev S128x128 : Shape := ⟨2, ![128, 128]⟩
abbrev S128x1x128 : Shape := ⟨3, ![128, 1, 128]⟩
abbrev S1x128x128 : Shape := ⟨3, ![1, 128, 128]⟩
abbrev S_ : Shape := ⟨0, ![]⟩

abbrev nBuf : Space → Nat
  | .hbm => 8
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128, .f32⟩
  | .local _ .vmem, ⟨5, _⟩ => ⟨S128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_mult1 (i : grid0.Coords) : BitVec 32 :=
  let arg0 : BitVec 32 := BitVec.ofNat 32 (i 0).val
  let c128_i32 : BitVec 32 := 128#32
  let v0 : BitVec 32 := Scalar.muli arg0 c128_i32
  v0
@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32_9 : BitVec 32 := 128#32
  let v31 : BitVec 32 := Scalar.muli arg5 c128_i32_9
  v31
def k0_off1 (k0_t1 : Fin k0_t1_loop.trips) : Fin 2 → Nat :=
  let c0_10 : Index := 0#32
  let c0_i32 : BitVec 32 := 0#32
  let c1_i32 : BitVec 32 := 1#32
  let arg5 : BitVec 32 := Scf.iv c0_i32 c1_i32 k0_t1
  let c128_i32_9 : BitVec 32 := 128#32
  let v31 : BitVec 32 := Scalar.muli arg5 c128_i32_9
  let v32 : BitVec 32 := v31
  let v33 : Index := Scalar.indexCast v32
  ![0, v33.toNat]
def k0_off2 (i : grid0.Coords) : Fin 2 → Nat :=
  let c0 : Index := 0#32
  let arg0 : BitVec 32 := BitVec.ofNat 32 (i 0).val
  let c128_i32 : BitVec 32 := 128#32
  let v0 : BitVec 32 := Scalar.muli arg0 c128_i32
  let v1 : BitVec 32 := v0
  let v6 : Index := Scalar.indexCast v1
  ![0, v6.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  h_S128x128 : 0 < S128x128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  reduces_S128x128x128_S128x128 : S128x128x128.Reduces [2] S128x128
  reduces_S128x128_S128 : S128x128.Reduces [0] S128
  inb_S128_S128_0 : ∀ a, (![0] : Fin 1 → Nat) a + S128.size a ≤ S128.size a
  h_S128 : 0 < S128.numel
  reducesTo_S1024_S_d0 : S1024.ReducesTo [0] S_
  h_S_ : 0 < S_.numel
  hrank0 : 0 < grid0.rank
  k0_mult1_dvd : ∀ i : grid0.Coords, 128 ∣ (k0_mult1 i).toNat
  k0_t1_ok : k0_t1_loop.OK
  k0_mult2_dvd : ∀ k0_t1 : Fin k0_t1_loop.trips, 128 ∣ (k0_mult2 k0_t1).toNat
  k0_off1_inb : ∀ k0_t1 : Fin k0_t1_loop.trips, ∀ a, (k0_off1 k0_t1) a + S128x128.size a ≤ S128x1024.size a
  k0_off2_inb : ∀ i : grid0.Coords, ∀ a, (k0_off2 i) a + S128x128.size a ≤ S128x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S128x1024.size a
  hwx0_0 : ∀ i : grid0.Coords, EltTy.bits .f32 = 32 ∨ (Rect.block (s := S128x1024) S128x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x1024.size a ≤ S128x1024.size a
  hwx0_1 : ∀ i : grid0.Coords, EltTy.bits .f32 = 32 ∨ (Rect.block (s := S128x1024) S128x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1024.size a ≤ S1024x1024.size a
  hwx0_2 : ∀ i : grid0.Coords, EltTy.bits .f32 = 32 ∨ (Rect.block (s := S1024x1024) S128x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S1024.size a
  hwx0_3 : ∀ i : grid0.Coords, EltTy.bits .f32 = 32 ∨ (Rect.block (s := S1024) S128.size (cc0_transform_3 i) (hinb0_3 i)).WholeWords (EltTy.packing .f32)

variable [Facts₀]

abbrev win0_0 : Pipeline.Window sig grid0 :=
  Pipeline.Window.ofSpec (Memref.whole main_arg0) S128x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x1024 : Shape := ⟨2, ![128, 1024]⟩
abbrev S1024x1024 : Shape := ⟨2, ![1024, 1024]⟩
abbrev S128x1x1024 : Shape := ⟨3, ![128, 1, 1024]⟩
abbrev S1x1024x1024 : Shape := ⟨3, ![1, 1024, 1024]⟩
abbrev S128x1024x1024 : Shape := ⟨3, ![128, 1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S1024x1024, .f32⟩
  | .hbm, ⟨3, _⟩ => ⟨S128x1024, .f32⟩
  | .hbm, ⟨4, _⟩ => ⟨S128x1024, .f32⟩
  | .hbm, ⟨5, _⟩ => ⟨S128x1x1024, .f32⟩
  | .hbm, ⟨6, _⟩ => ⟨S1x1024x1024, .f32⟩
  | .hbm, ⟨7, _⟩ => ⟨S128x1024x1024, .f32⟩
  | .hbm, ⟨8, _⟩ => ⟨S128x1024x1024, .f32⟩
  | .hbm, ⟨9, _⟩ => ⟨S128x1024x1024, .f32⟩
  | .hbm, ⟨10, _⟩ => ⟨S_, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]

class Facts₀ : Prop where
  bcast_S128x1024_S128x1x1024_0_2 : S128x1024.BroadcastsInDim S128x1x1024 (![0, 2] : Fin 2 → Fin S128x1x1024.rank)
  bcast_S1024x1024_S1x1024x1024_1_2 : S1024x1024.BroadcastsInDim S1x1024x1024 (![1, 2] : Fin 2 → Fin S1x1024x1024.rank)
  bcast_S128x1x1024_S128x1024x1024_0_1_2 : S128x1x1024.BroadcastsInDim S128x1024x1024 (![0, 1, 2] : Fin 3 → Fin S128x1024x1024.rank)
  bcast_S1x1024x1024_S128x1024x1024_0_1_2 : S1x1024x1024.BroadcastsInDim S128x1024x1024 (![0, 1, 2] : Fin 3 → Fin S128x1024x1024.rank)
  reducesTo_S128x1024x1024_S128x1024_d2 : S128x1024x1024.ReducesTo [2] S128x1024
  h_S_ : 0 < S_.numel
  bcast_S_S128x1024 : S_.BroadcastsInDim S128x1024 (![] : Fin 0 → Fin S128x1024.rank)
  reducesTo_S128x1024_S_d0_1 : S128x1024.ReducesTo [0, 1] S_

variable [Facts₀]

class Facts : Prop extends Facts₀ where

variable [Facts]
-- ==== Proof.Spec.lean ====
/-
  The mathematics the two programs share, stated on the extended reals with no program in sight.

  * Both take, for a batch row and a mask row, the largest of 1024 products. One program folds `max` from −∞ over
    the 1024 columns at once; the other over eight chunks per lane and then over the 128 lanes. Either way it is the
    supremum of the 1024 products (`fold_max_bot`, `sup_chunks`): max is associative, commutative and idempotent,
    and no finiteness is needed.
  * With that maximum `mm`, both form `xp = (1 − y)·x + y·mm` and the entry
    `y·log xp + (1 − y)·xp⁴·log(1 − xp)` — one writes `xp⁴` as `(xp·xp)·(xp·xp)` and drops the factor
    `(1 − xp)⁰`, the other calls the power function for both. When `y` is a real number and `0 < xp < 1` both logarithms are
    real, `(1 − xp)⁰ = 1` and the two fourth powers agree, so both entries are ONE real number (`lossK_real`,
    `lossR_real`).
  * One program negates every entry and then sums them column by column, then sums the columns and divides by the
    count; the other sums all entries, divides, and negates once. On the extended reals negation does not pass through
    a sum that holds both infinities, so this step is where real entries are needed: for real entries the two
    results are the same real number (`mean_neg`).
-/
import Idealize.ShloMosaic.PureOps.Ideal.Laws

noncomputable section

namespace Cert.Spec

open Idealize.ShloMosaic
open scoped BigOperators

/-! ## Maxima -/

/-- Folding `max` from the bottom element over a finite set is the supremum over it. -/
theorem fold_max_bot {ι : Type} (s : Finset ι) (f : ι → EReal) : s.fold max ⊥ f = s.sup f := by
  classical
  refine Finset.induction_on s (by simp) fun a s ha ih => ?_
  rw [Finset.fold_insert ha, Finset.sup_insert, ih]

/-- Column `128·k + l` of the 1024, for a chunk `k < 8` and a lane `l`. -/
def col (k : ℕ) (hk : k < 8) (l : Fin 128) : Fin 1024 := ⟨128 * k + l.val, by have := l.isLt; omega⟩

/-- The supremum over the 1024 columns, taken lane by lane over the eight chunks and then over the lanes. -/
theorem sup_chunks (P : Fin 1024 → EReal) :
    (Finset.univ : Finset (Fin 128)).sup
        (fun l => (Finset.range 8).sup (fun k => if h : k < 8 then P (col k h l) else ⊥))
      = (Finset.univ : Finset (Fin 1024)).sup P := by
  apply le_antisymm
  · refine Finset.sup_le fun l _ => Finset.sup_le fun k hk => ?_
    rw [dif_pos (Finset.mem_range.mp hk)]
    exact Finset.le_sup (f := P) (Finset.mem_univ _)
  · refine Finset.sup_le fun j _ => ?_
    have hj := j.isLt
    have hk : j.val / 128 < 8 := by omega
    have hl : j.val % 128 < 128 := Nat.mod_lt _ (by norm_num)
    have e : col (j.val / 128) hk ⟨j.val % 128, hl⟩ = j := Fin.ext (by show 128 * (j.val / 128) + j.val % 128 = j.val; omega)
    calc P j = (if h : j.val / 128 < 8 then P (col (j.val / 128) h ⟨j.val % 128, hl⟩) else ⊥) := by
            rw [dif_pos hk, e]
      _ ≤ (Finset.range 8).sup (fun k => if h : k < 8 then P (col k h ⟨j.val % 128, hl⟩) else ⊥) :=
          Finset.le_sup (f := fun k => if h : k < 8 then P (col k h ⟨j.val % 128, hl⟩) else ⊥)
            (Finset.mem_range.mpr hk)
      _ ≤ _ :=
          Finset.le_sup (f := fun l => (Finset.range 8).sup (fun k => if h : k < 8 then P (col k h l) else ⊥))
            (Finset.mem_univ (⟨j.val % 128, hl⟩ : Fin 128))

/-! ## One entry of the loss -/

/-- `xp`: the probability mixed with the masked maximum by the label. -/
def mix (x y mm : EReal) : EReal := (1 - y) * x + y * mm

/-- The entry as the kernel spells it: the fourth power by two squarings, no zeroth power. -/
def lossK (x y mm : EReal) : EReal :=
  y * Ideal.log (mix x y mm)
    + (1 - y) * (mix x y mm * mix x y mm * (mix x y mm * mix x y mm)) * Ideal.log (1 - mix x y mm)

/-- The entry as the reference spells it: both powers by the power function. -/
def lossR (x y mm : EReal) : EReal :=
  y * Ideal.pow (1 - mix x y mm) ((0 : ℝ) : EReal) * Ideal.log (mix x y mm)
    + (1 - y) * Ideal.pow (mix x y mm) ((4 : ℝ) : EReal) * Ideal.log (1 - mix x y mm)

/-- The entry for a real label `s` and a real `xp = r`. -/
def lossReal (s r : ℝ) : ℝ := s * Real.log r + (1 - s) * (r * r * (r * r)) * Real.log (1 - r)

theorem one_sub_coe (r : ℝ) : (1 : EReal) - (r : EReal) = ((1 - r : ℝ) : EReal) := by
  rw [EReal.coe_sub, EReal.coe_one]

theorem lossK_real {x y mm : EReal} {s r : ℝ} (hy : y = (s : EReal)) (hr : mix x y mm = (r : EReal))
    (h0 : 0 < r) (h1 : r < 1) : lossK x y mm = (lossReal s r : EReal) := by
  unfold lossK lossReal
  rw [hr, hy, one_sub_coe, one_sub_coe, Ideal.log_coe, Ideal.log_coe, if_neg (not_le.mpr h0),
    if_neg (not_le.mpr (sub_pos.mpr h1))]
  simp only [EReal.coe_add, EReal.coe_mul]

theorem lossR_real {x y mm : EReal} {s r : ℝ} (hy : y = (s : EReal)) (hr : mix x y mm = (r : EReal))
    (h0 : 0 < r) (h1 : r < 1) : lossR x y mm = (lossReal s r : EReal) := by
  unfold lossR lossReal
  rw [hr, hy, one_sub_coe, one_sub_coe, Ideal.log_coe, Ideal.log_coe, if_neg (not_le.mpr h0),
    if_neg (not_le.mpr (sub_pos.mpr h1)), Ideal.pow_coe_coe, Ideal.pow_coe_coe]
  have p0 : Real.rpow (1 - r) 0 = 1 := Real.rpow_zero _
  have p4 : Real.rpow r 4 = r * r * (r * r) := by
    show r ^ (4 : ℝ) = _
    rw [show (4 : ℝ) = ((4 : ℕ) : ℝ) by norm_num, Real.rpow_natCast]; ring
  rw [p0, p4, EReal.coe_one, mul_one]
  simp only [EReal.coe_add, EReal.coe_mul]

/-! ## The two means -/

/-- A finite sum of real numbers, read in the extended reals, is the sum of their readings. -/
theorem coe_sum {ι : Type} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- For real entries: negate each, sum down the 128 rows, sum the 1024 columns, divide by the count — or sum all,
    divide, negate once. -/
theorem mean_neg (ρ : Fin 128 → Fin 1024 → ℝ) :
    Ideal.div (0 + ∑ i : Fin 1024, ∑ b : Fin 128, ((0 : EReal) - (ρ b i : EReal))) ((131072 : ℝ) : EReal)
      = -(Ideal.div (0 + ∑ b : Fin 128, ∑ i : Fin 1024, (ρ b i : EReal)) ((131072 : ℝ) : EReal)) := by
  have hN : (131072 : ℝ) ≠ 0 := by norm_num
  rw [Ideal.div_coe hN, Ideal.div_coe hN]
  simp only [zero_sub, zero_add, ← EReal.coe_neg, ← coe_sum, ← EReal.coe_mul]
  congr 1
  rw [Finset.sum_comm]
  simp only [Finset.sum_neg_distrib]
  ring

end Cert.Spec

end
-- ==== Proof.Consts.lean ====
/-
  The float constants the two programs spell, as the extended reals their bit patterns denote. One module states them
  all, so the others read them here and never unfold the pattern decoder themselves.
-/
import Idealize.ShloMosaic.PureOps.Ideal

noncomputable section

namespace Cert.Consts

open Idealize.ShloMosaic

/-- The pattern of `-inf` (the start of both maxima) is the bottom element. -/
theorem ofBits_neg_inf : Ideal.ofBits .f32 0xFF800000#32 = ⊥ := by
  simp [Ideal.ofBits, Ideal.ieee]

/-- The pattern of `+inf` (the bound in the finiteness test) is the top element. -/
theorem ofBits_pos_inf : Ideal.ofBits .f32 0x7F800000#32 = ⊤ := by
  simp [Ideal.ofBits, Ideal.ieee]

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `4.0`, the reference's exponent, denotes the real `4`. -/
theorem ofBits_four : Ideal.ofBits .f32 0x40800000#32 = ((4 : ℝ) : EReal) := by
  simp [Ideal.ofBits, Ideal.ieee, -EReal.coe_mul]; norm_num

/-- `131072.0 = 128 · 1024`, the number of entries both means divide by, denotes that real. -/
theorem ofBits_count : Ideal.ofBits .f32 0x48000000#32 = ((131072 : ℝ) : EReal) := by
  simp [Ideal.ofBits, Ideal.ieee, -EReal.coe_mul]; norm_num

end Cert.Consts

end
-- ==== Proof.RunningMax.lean ====
/-
  The running maximum the kernel carries through its eight column chunks.

  One grid point holds a block of 128 mask rows. The body walks the 1024 columns in eight chunks of 128; in chunk k it
  forms, for every batch row b, mask row r and lane l, the product  x[b,c]² · y[b,c] · mask[r,c]  at the column
  c = 128·k + l, and keeps the entrywise maximum with what it carried so far, starting from −∞. So after n chunks the
  carried entry (b, r, l) is the largest of those products over the chunks k < n (the bottom element when n = 0):
  `carried_apply`. Nothing here uses a precondition: max is a lattice operation on the extended reals.
-/
import proofs.«169434_j22625887715478_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import proofs.«169434_j22625887715478_2_alg».proof.Proof.Spec
import proofs.«169434_j22625887715478_2_alg».proof.Proof.Consts

set_option maxRecDepth 16384

noncomputable section

namespace Cert.KernelIdeal.RunningMax

open Cert.KernelIdeal Cert.KernelIdeal.Gen
open Idealize.ShloMosaic Idealize.ShloMosaic.TcCoe Idealize.ShloMosaic.ValueIdx
open Idealize.SL Idealize.SL.Sem
open Cert.Spec (col)

/-! ## A unit axis in the middle or in front of a rank-3 shape, read by coordinates -/

section Layout
variable {α : Type}

/-- `[a, c]` viewed as `[a, 1, c]`: entry `(p, u, r)` is the operand's `(p, r)`. -/
theorem cast_mid_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- `[a, 1, c]` repeated along the middle axis to `[a, b, c]`: entry `(p, q, r)` is the operand's `(p, 0, r)`. -/
theorem bcast_mid_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) :=
  broadcastTo_apply v h _ _ (by
    intro d
    match d with
    | ⟨0, _⟩ =>
      show p.val = if a = 1 then 0 else p.val
      split_ifs with ha
      · have := p.isLt; omega
      · rfl
    | ⟨1, _⟩ => rfl
    | ⟨2, _⟩ =>
      show r.val = if c = 1 then 0 else r.val
      split_ifs with hc
      · have := r.isLt; omega
      · rfl)

/-- `[1, b, c]` repeated along the leading axis to `[a, b, c]`: entry `(p, q, r)` is the operand's `(0, q, r)`. -/
theorem bcast_front_apply {a b c : ℕ} (w : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ w h (ix3 p q r) = w (ix3 (0 : Fin 1) q r) :=
  broadcastTo_apply w h _ _ (by
    intro d
    match d with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl)

end Layout

/-! ## One chunk -/

/-- The product the maximum is taken over, at batch row `b`, mask row `r` (of the block) and column `j`. -/
def term (x y m : Vec Ideal S128x1024 .f32) (b r : Fin 128) (j : Fin 1024) : EReal :=
  x (ix2 b j) * x (ix2 b j) * y (ix2 b j) * m (ix2 r j)

/-- The rectangle chunk `k` loads: all 128 rows, columns `128·k … 128·k + 127`. -/
abbrev chunk (k : Fin k0_t1_loop.trips) : Rect S128x1024 := Rect.unit (k0_off1 k) S128x128.size (Gen.k0_off1_inb k)

theorem trips_eq : k0_t1_loop.trips = 8 := by decide

/-- Where entry `(p, l)` of chunk `k` sits in the block. -/
theorem chunk_idx (k : Fin k0_t1_loop.trips) (p l : Fin 128) :
    (chunk k).idx (ix2 p l) = ix2 p (col k.val (trips_eq ▸ k.isLt) l) := by
  funext d
  match d with
  | ⟨0, _⟩ =>
    refine Fin.ext ?_
    show (k0_off1 k) 0 + 1 * p.val = p.val
    rw [Gen.k0_off1_eq]; simp
  | ⟨1, _⟩ =>
    refine Fin.ext ?_
    show (k0_off1 k) 1 + 1 * l.val = 128 * k.val + l.val
    rw [Gen.k0_off1_eq]; simp

variable {F : FTy → Type} [FloatOps F]

/-- One trip of the loop, as the run found it, is the trip's payload at the three chunks it loads. -/
theorem trip_eq (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128 .f32) (harg4 : arg4.IsWhole)
    (x0 x1 x2 : Vec F S128x1024 .f32) (k : Fin k0_t1_loop.trips) (acc : FVec F S128x128x128 .f32) :
    tripR_k0_t1 (F := F) 𝒱 c bd i arg1 harg1 arg2 harg2 arg3 harg3 arg4 harg4 (harg1.unread x0) (harg2.unread x1) (harg3.unread x2) k acc
      = k0_pay2 acc (View.ld x0 (chunk k)) (View.ld x1 (chunk k)) (View.ld x2 (chunk k)) := by
  unfold tripR_k0_t1 trip_k0_t1
  dsimp only
  simp only [View.readAt_eq_ld, harg1.read_unread, harg2.read_unread, harg3.read_unread]

/-- The trip's payload at entry `(b, r, l)`: the larger of the carried entry and the product of the loaded chunks'
    entries `(b, l)`, `(b, l)`, `(r, l)`. -/
theorem pay2_apply (acc : FVec Ideal S128x128x128 .f32) (u v w : Vec Ideal S128x128 .f32) (b r l : Fin 128) :
    k0_pay2 (F := Ideal) acc u v w (ix3 b r l)
      = max (acc (ix3 b r l)) (u (ix2 b l) * u (ix2 b l) * v (ix2 b l) * w (ix2 r l)) := by
  unfold k0_pay2
  rw [maximumf_apply, mulf_apply, bcast_mid_apply, bcast_front_apply, cast_mid_apply, shapeCast_ab_1ab_apply,
    mulf_apply, mulf_apply]

/-- The loop starts from −∞ everywhere. -/
theorem start_apply (j : S128x128x128.Idx) : k0_pay1 (F := Ideal) j = ⊥ := by
  unfold k0_pay1
  exact Cert.Consts.ofBits_neg_inf

/-- AFTER `n` CHUNKS the carried entry `(b, r, l)` is the largest product over the chunks before `n`, at the columns
    `128·k + l`: by induction on `n`, one trip's payload (`pay2_apply`) at each step. -/
theorem carried_apply (𝒱 : Variants) (c : Dev nD) (bd : Option 𝒱.V) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128 .f32) (harg4 : arg4.IsWhole)
    (x0 x1 x2 : Vec Ideal S128x1024 .f32) (b r l : Fin 128) :
    ∀ n, n ≤ 8 →
      st_k0_t1 (F := Ideal) 𝒱 c bd i arg1 harg1 arg2 harg2 arg3 harg3 arg4 harg4 (harg1.unread x0) (harg2.unread x1) (harg3.unread x2) k0_pay1 n (ix3 b r l)
        = (Finset.range n).sup (fun k => if h : k < 8 then term x0 x1 x2 b r (col k h l) else ⊥) := by
  intro n
  induction n with
  | zero =>
    intro _
    rw [Finset.range_zero, Finset.sup_empty]
    exact start_apply _
  | succ n ih =>
    intro hn
    have hn8 : n < 8 := by omega
    have hk : n < k0_t1_loop.trips := trips_eq ▸ hn8
    have e := st_k0_t1_succ (F := Ideal) 𝒱 c bd i arg1 harg1 arg2 harg2 arg3 harg3 arg4 harg4 (harg1.unread x0) (harg2.unread x1) (harg3.unread x2) k0_pay1 ⟨n, hk⟩
    rw [show n + 1 = (⟨n, hk⟩ : Fin k0_t1_loop.trips).val + 1 from rfl, e, trip_eq, pay2_apply, ih (by omega),
      Finset.range_add_one, Finset.sup_insert, dif_pos hn8, max_comm]
    congr 1
    show x0 ((chunk ⟨n, hk⟩).idx (ix2 b l)) * x0 ((chunk ⟨n, hk⟩).idx (ix2 b l)) * x1 ((chunk ⟨n, hk⟩).idx (ix2 b l))
        * x2 ((chunk ⟨n, hk⟩).idx (ix2 r l)) = _
    rw [chunk_idx, chunk_idx]
    rfl

end Cert.KernelIdeal.RunningMax

end
-- ==== Proof.BlockValue.lean ====
/-
  What one grid point stores: entry `i'` of its 128-entry output block.

  After the eight chunks the body takes, for each batch row `b` and mask row `i'`, the largest carried entry over the
  128 lanes: a supremum again (`lane_max_apply`). With it it forms the loss entry of row `b` and column `i'` of the
  block (the kernel's spelling, `Spec.lossK`), negates it, and adds the 128 rows up: `pay3_apply`. Put together
  with the carried value of `RunningMax`, the stored entry is a function of the three blocks the point was given:
  `block_apply`.
-/
import proofs.«169434_j22625887715478_2_alg».proof.Proof.RunningMax

set_option maxRecDepth 16384

noncomputable section

namespace Cert.KernelIdeal.BlockValue

open Cert.KernelIdeal Cert.KernelIdeal.Gen Cert.KernelIdeal.RunningMax
open Idealize.ShloMosaic Idealize.ShloMosaic.TcCoe Idealize.ShloMosaic.ValueIdx
open Idealize.SL Idealize.SL.Sem
open Cert.Spec (col lossK mix)
open scoped BigOperators

/-- The maximum over the lanes of a `[128, 128, 128]` value, started from −∞, at `(b, r)`: the supremum over the lanes. -/
theorem lane_max_apply (v4 : FVec Ideal S128x128x128 .f32) (h : S128x128x128.Reduces [2] S128x128)
    (hφ : FKind.Formats .f32) (hacc : (0xFF800000#32 : BitVec FTy.f32.bits) = FKind.maximumf.neutral .f32 hφ) (b r : Fin 128) :
    multiReduction .maximumf [2] S128x128 v4 0xFF800000#32 h hφ hacc (ix2 b r)
      = (Finset.univ : Finset (Fin 128)).sup (fun l => v4 (ix3 b r l)) := by
  have hl : ∀ l : Fin 128, h.lift (ix2 b r) l = ix3 b r l := fun l => funext fun d => by
    match d with
    | ⟨0, _⟩ => exact Fin.ext rfl
    | ⟨1, _⟩ => exact Fin.ext rfl
    | ⟨2, _⟩ => exact Fin.ext rfl
  rw [Ideal.multiReduction_maximumf_single, Ideal.ofBits_def, Cert.Consts.ofBits_neg_inf, Cert.Spec.fold_max_bot]
  exact Finset.sup_congr rfl fun l _ => congrArg v4 (hl l)

/-- Summing a `[128, 128]` value down its rows: the index with row `b` put back in front of column `i'`. -/
theorem lift_rows (h : S128x128.Reduces [0] S128) (i' b : Fin 128) : h.lift (ix1 i') b = ix2 b i' :=
  funext fun d => by
    match d with
    | ⟨0, _⟩ => exact Fin.ext rfl
    | ⟨1, _⟩ => exact Fin.ext rfl

theorem one_eq : (Scalar.ofBits .f32 0x3F800000#32 : Ideal .f32) = (1 : EReal) := Cert.Consts.ofBits_one
theorem zero_eq : (Scalar.ofBits .f32 0x00000000#32 : Ideal .f32) = (0 : EReal) := Cert.Consts.ofBits_zero

set_option backward.isDefEq.respectTransparency.types false in
/-- THE STORED VALUE at entry `i'`, from the carried value `v4` and the two loaded blocks `v7` (probabilities) and `v9`
    (labels): the sum over the batch rows of minus the loss entry. -/
theorem pay3_apply (v4 : FVec Ideal S128x128x128 .f32) (v7 v9 : Vec Ideal S128x128 .f32) (i' : Fin 128) :
    k0_pay3 (F := Ideal) v4 v7 v9 (ix1 i')
      = ∑ b : Fin 128, ((0 : EReal) - lossK (v7 (ix2 b i')) (v9 (ix2 b i'))
          ((Finset.univ : Finset (Fin 128)).sup (fun l => v4 (ix3 b i' l)))) := by
  unfold k0_pay3
  rw [Ideal.multiReduction_add_single]
  refine Finset.sum_congr rfl fun b _ => ?_
  rw [lift_rows]
  simp only [subf_apply, addf_apply, mulf_apply, broadcast_apply, log, Ideal.log_def, one_eq, zero_eq, lossK, mix]
  rw [lane_max_apply v4 _ _ _ b i']

/-- The column of the 1024 that entry `i'` of grid point `i`'s block stands for: `128·i + i'`. -/
def ownCol (i : grid0.Coords) (i' : Fin 128) : Fin 1024 :=
  ⟨128 * (i 0).val + i'.val, by have h : (i 0).val < 8 := (i 0).isLt; have := i'.isLt; omega⟩

/-- The rectangle of the point's own 128 columns, which the tail loads of the probabilities and the labels. -/
abbrev ownTile (i : grid0.Coords) : Rect S128x1024 := Rect.unit (k0_off2 i) S128x128.size (Gen.k0_off2_inb i)

theorem ownTile_idx (i : grid0.Coords) (p l : Fin 128) : (ownTile i).idx (ix2 p l) = ix2 p (ownCol i l) := by
  funext d
  match d with
  | ⟨0, _⟩ =>
    refine Fin.ext ?_
    show (k0_off2 i) 0 + 1 * p.val = p.val
    rw [Gen.k0_off2_eq]; simp
  | ⟨1, _⟩ =>
    refine Fin.ext ?_
    show (k0_off2 i) 1 + 1 * l.val = 128 * (i 0).val + l.val
    rw [Gen.k0_off2_eq]; simp

theorem hz1 : (![0] : Fin 1 → Nat) = fun _ => 0 := funext fun a => by fin_cases a; rfl

theorem trips_lit : Scf.trips (0#32) (Scalar.addi 0#32 8#32) 1#32 = 8 := by decide

/-- WHAT ONE GRID POINT STORES, entry by entry, as a function of the three blocks it is given (`x0` the probabilities,
    `x1` the labels, `x2` its 128 mask rows): the sum over the batch rows of minus the loss entry at the point's own
    column, the masked maximum taken lane by lane over the eight chunks. -/
theorem block_apply (c : Dev nD) (i : grid0.Coords) (arg1 : Memref sig .tc .vmem S128x1024 .f32) (harg1 : arg1.IsWhole) (arg2 : Memref sig .tc .vmem S128x1024 .f32) (harg2 : arg2.IsWhole) (arg3 : Memref sig .tc .vmem S128x1024 .f32) (harg3 : arg3.IsWhole) (arg4 : Memref sig .tc .vmem S128 .f32) (harg4 : arg4.IsWhole)
    (x0 x1 x2 : Vec Ideal S128x1024 .f32) (i' : Fin 128) :
    out0_A_3 (F := Ideal) c i arg1 harg1 arg2 harg2 arg3 harg3 arg4 harg4 x0 x1 x2 (ix1 i')
      = ∑ b : Fin 128, ((0 : EReal) - lossK (x0 (ix2 b (ownCol i i'))) (x1 (ix2 b (ownCol i i')))
          ((Finset.univ : Finset (Fin 128)).sup (fun l =>
            (Finset.range 8).sup (fun k => if h : k < 8 then term x0 x1 x2 b i' (col k h l) else ⊥)))) := by
  unfold out0_A_3
  rw [View.read_writes_eq_canon _ _ _ (cover0_A_3 c i arg1 harg1 arg2 harg2 arg3 harg3 arg4 harg4 x0 x1 x2)]
  unfold kernelRun0_A
  dsimp only
  rw [View.canon_unit_zero hz1, pay3_apply]
  refine Finset.sum_congr rfl fun b _ => ?_
  simp only [View.readAt_eq_ld, harg1.read_unread, harg2.read_unread]
  have e0 : View.ld x0 (ownTile i) (ix2 b i') = x0 (ix2 b (ownCol i i')) := by
    show x0 ((ownTile i).idx (ix2 b i')) = _
    rw [ownTile_idx]
  have e1 : View.ld x1 (ownTile i) (ix2 b i') = x1 (ix2 b (ownCol i i')) := by
    show x1 ((ownTile i).idx (ix2 b i')) = _
    rw [ownTile_idx]
  have e2 : ∀ l : Fin 128,
      st_k0_t1 (F := Ideal) Variants.none c none i arg1 harg1 arg2 harg2 arg3 harg3 arg4 harg4 (harg1.unread x0) (harg2.unread x1) (harg3.unread x2) k0_pay1
          (Scf.trips (0#32) (Scalar.addi 0#32 8#32) 1#32) (ix3 b i' l)
        = (Finset.range 8).sup (fun k => if h : k < 8 then term x0 x1 x2 b i' (col k h l) else ⊥) := by
    intro l
    rw [trips_lit]
    exact carried_apply Variants.none c none i arg1 harg1 arg2 harg2 arg3 harg3 arg4 harg4 x0 x1 x2 b i' l 8 le_rfl
  rw [e0, e1]
  simp only [e2]

end Cert.KernelIdeal.BlockValue

end
-- ==== Proof.Target.lean ====
/-
  The functions of the three argument arrays that both programs are read against.

  `x` (probabilities) and `y` (labels) are 128 × 1024, `m` (the mask) is 1024 × 1024. For a batch row `b` and a
  column `i`:
    masked b i   = the largest over the columns j of  x[b,j]² · y[b,j] · m[i,j]          (a supremum; −∞-based)
    mixed  b i   = (1 − y[b,i]) · x[b,i] + y[b,i] · masked b i                           (the reference's `xp`)
  `colSum i` is what the kernel leaves at entry `i` of its 1024-entry output: the sum over the batch rows of minus
  the loss entry. `InDomain` says what the precondition gives: every label a real number, every `mixed` strictly
  between 0 and 1 (so both logarithms of the reference are logarithms of positive reals).
  `means_agree`: on that domain the kernel's mean of the column sums is the reference's negated mean.
-/
import Idealize.ShloMosaic.Lib.ValueIdx
import proofs.«169434_j22625887715478_2_alg».proof.Proof.Spec

noncomputable section

namespace Cert.Target

open Idealize.ShloMosaic Idealize.ShloMosaic.ValueIdx Cert.Spec
open scoped BigOperators

abbrev Rows := (⟨2, ![128, 1024]⟩ : Shape).Idx → EReal
abbrev Square := (⟨2, ![1024, 1024]⟩ : Shape).Idx → EReal

/-- The product the maximum runs over. -/
def prod (x y : Rows) (m : Square) (b : Fin 128) (i j : Fin 1024) : EReal :=
  x (ix2 b j) * x (ix2 b j) * y (ix2 b j) * m (ix2 i j)

/-- The masked maximum. -/
def masked (x y : Rows) (m : Square) (b : Fin 128) (i : Fin 1024) : EReal :=
  (Finset.univ : Finset (Fin 1024)).sup (prod x y m b i)

/-- The reference's `xp`. -/
def mixed (x y : Rows) (m : Square) (b : Fin 128) (i : Fin 1024) : EReal :=
  mix (x (ix2 b i)) (y (ix2 b i)) (masked x y m b i)

/-- Entry `i` of the kernel's output array. -/
def colSum (x y : Rows) (m : Square) (i : Fin 1024) : EReal :=
  ∑ b : Fin 128, ((0 : EReal) - lossK (x (ix2 b i)) (y (ix2 b i)) (masked x y m b i))

/-- What the precondition says of the arrays: real labels, and `0 < xp < 1` everywhere. -/
def InDomain (x y : Rows) (m : Square) : Prop :=
  (∀ (b : Fin 128) (i : Fin 1024), ∃ s : ℝ, y (ix2 b i) = (s : EReal)) ∧
    ∀ (b : Fin 128) (i : Fin 1024), ∃ r : ℝ, mixed x y m b i = (r : EReal) ∧ 0 < r ∧ r < 1

/-- ON THE DOMAIN the kernel's result — the column sums added up and divided by the count — is the reference's —
    all loss entries added up, divided, negated: every entry is one real number on both sides (`lossK_real`,
    `lossR_real`), and for real entries negation passes through the sums (`mean_neg`). -/
theorem means_agree (x y : Rows) (m : Square) (h : InDomain x y m) :
    Ideal.div (0 + ∑ i : Fin 1024, colSum x y m i) ((131072 : ℝ) : EReal)
      = -(Ideal.div (0 + ∑ b : Fin 128, ∑ i : Fin 1024, lossR (x (ix2 b i)) (y (ix2 b i)) (masked x y m b i))
            ((131072 : ℝ) : EReal)) := by
  obtain ⟨hy, hx⟩ := h
  choose s hs using hy
  choose r hr h0 h1 using hx
  have eK : ∀ b i, lossK (x (ix2 b i)) (y (ix2 b i)) (masked x y m b i) = (lossReal (s b i) (r b i) : EReal) :=
    fun b i => lossK_real (hs b i) (hr b i) (h0 b i) (h1 b i)
  have eR : ∀ b i, lossR (x (ix2 b i)) (y (ix2 b i)) (masked x y m b i) = (lossReal (s b i) (r b i) : EReal) :=
    fun b i => lossR_real (hs b i) (hr b i) (h0 b i) (h1 b i)
  unfold colSum
  simp only [eK, eR]
  exact mean_neg fun b i => lossReal (s b i) (r b i)

end Cert.Target

end
-- ==== Proof.ArrayValue.lean ====
/-
  From the eight blocks to the whole 1024-entry output array.

  Grid point `t` is given the probabilities and the labels whole and mask rows `128·t … 128·t + 127`, and writes
  entries `128·t … 128·t + 127` of the output. So its block (`BlockValue.block_apply`), with the blocks read where
  they sit in the arrays and the lane-by-lane, chunk-by-chunk maximum regrouped into ONE supremum over the 1024
  columns (`Spec.sup_chunks`), is the restriction of one whole-array function, `outArr`: entry `i` is
  `Target.colSum x y mask i` (`flushed_eq`). The eight blocks tile the array (`cover`), so the array ends as `outArr`
  of the argument arrays (`final`).
-/
import proofs.«169434_j22625887715478_2_alg».proof.Proof.BlockValue
import proofs.«169434_j22625887715478_2_alg».proof.Proof.Target

set_option maxRecDepth 16384

noncomputable section

namespace Cert.KernelIdeal.ArrayValue

open Cert.KernelIdeal Cert.KernelIdeal.Gen Cert.KernelIdeal.RunningMax Cert.KernelIdeal.BlockValue
open Idealize.ShloMosaic Idealize.ShloMosaic.TcCoe Idealize.ShloMosaic.ValueIdx
open Idealize.SL Idealize.SL.Sem
open Idealize.ShloMosaic.Pipeline (Dat Cfg Window)
open Cert.Spec (col lossK)
open scoped BigOperators

/-- The array the kernel leaves: entry `i` is the column sum at `i`. -/
def outArr (x y : Cert.Target.Rows) (mk : Cert.Target.Square) : S1024.Idx → EReal :=
  fun idx => Cert.Target.colSum x y mk (idx 0)

/-- A point's block, its three input blocks read where they sit in the arrays `X`, `Y`, `M`: the column sum at the
    point's own column. The maximum over lanes and chunks is the supremum over all columns. -/
theorem block_to_array (X Y : Cert.Target.Rows) (M : Cert.Target.Square) (x0 x1 x2 : Vec Ideal S128x1024 .f32)
    (i : grid0.Coords)
    (h0 : ∀ (p : Fin 128) (q : Fin 1024), x0 (ix2 p q) = X (ix2 p q))
    (h1 : ∀ (p : Fin 128) (q : Fin 1024), x1 (ix2 p q) = Y (ix2 p q))
    (h2 : ∀ (r : Fin 128) (q : Fin 1024), x2 (ix2 r q) = M (ix2 (ownCol i r) q)) (i' : Fin 128) :
    (∑ b : Fin 128, ((0 : EReal) - lossK (x0 (ix2 b (ownCol i i'))) (x1 (ix2 b (ownCol i i')))
          ((Finset.univ : Finset (Fin 128)).sup (fun l =>
            (Finset.range 8).sup (fun k => if h : k < 8 then term x0 x1 x2 b i' (col k h l) else ⊥)))))
      = Cert.Target.colSum X Y M (ownCol i i') := by
  unfold Cert.Target.colSum
  refine Finset.sum_congr rfl fun b _ => ?_
  rw [h0, h1]
  congr 2
  unfold Cert.Target.masked
  rw [← Cert.Spec.sup_chunks (Cert.Target.prod X Y M b (ownCol i i'))]
  refine Finset.sup_congr rfl fun l _ => Finset.sup_congr rfl fun k hk => ?_
  have hk8 : k < 8 := Finset.mem_range.mp hk
  rw [dif_pos hk8, dif_pos hk8]
  unfold term Cert.Target.prod
  rw [h0, h1, h2]

variable (m : (ℓ : Loc nD τ sig) → Buf (Elt Ideal) ℓ) (ρ : Dev nD → PrngReg)

/-- The printed index maps, decided once over the grid: the probabilities and the labels are one block, the mask's
    block row and the output's block are the point's own coordinate, which is the point's number. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = (grid0.coords t 0).val ∧ win0_2.index t (1 : Fin 2) = 0
    ∧ win0_3.index t (0 : Fin 1) = (grid0.coords t 0).val ∧ (grid0.coords t 0).val = t.val :=
  (by decide +kernel : ∀ t : Fin grid0.N, _)

/-- WHAT POINT `t` WRITES BACK is block `t` of `outArr` of the argument arrays as the region finds them. -/
theorem flushed_eq (c : Dev nD) (t : Fin cfg0.N) :
    (dats m 0 c).flushed 3 t
      = ((cfg0.win 3).blk t).view.read (Elt Ideal) (outArr (V m c main_arg0) (V m c main_arg1) (V m c main_arg2)) := by
  show (cfg0.win 3).cut (grid0.coords t) ((dats m 0 c).after 3 t) = _
  rw [after0_3]
  unfold outsAt0
  obtain ⟨e00, e01, e10, e11, e20, e21, e30, et⟩ := idx_facts t
  funext j
  obtain ⟨i', rfl⟩ : ∃ i' : Fin 128, j = ix1 i' := ⟨j 0, eq_ix1 j⟩
  refine (block_apply c (grid0.coords t) (ms0_0 t) (hs0_0 t) (ms0_1 t) (hs0_1 t) (ms0_2 t) (hs0_2 t) (ms0_3 t) (hs0_3 t)
    (iblk m c 0 t) (iblk m c 1 t) (iblk m c 2 t) i').trans ?_
  refine (block_to_array (V m c main_arg0) (V m c main_arg1) (V m c main_arg2) (iblk m c 0 t) (iblk m c 1 t) (iblk m c 2 t)
    (grid0.coords t) ?_ ?_ ?_ i').trans ?_
  · intro p q
    show V m c main_arg0 (((cfg0.win 0).blk t).view.emb (ix2 p q)) = V m c main_arg0 (ix2 p q)
    refine congrArg _ (funext fun a => Fin.ext ?_)
    match a with
    | ⟨0, _⟩ => show win0_0.index t (0 : Fin 2) * 128 + 1 * p.val = p.val; omega
    | ⟨1, _⟩ => show win0_0.index t (1 : Fin 2) * 1024 + 1 * q.val = q.val; omega
  · intro p q
    show V m c main_arg1 (((cfg0.win 1).blk t).view.emb (ix2 p q)) = V m c main_arg1 (ix2 p q)
    refine congrArg _ (funext fun a => Fin.ext ?_)
    match a with
    | ⟨0, _⟩ => show win0_1.index t (0 : Fin 2) * 128 + 1 * p.val = p.val; omega
    | ⟨1, _⟩ => show win0_1.index t (1 : Fin 2) * 1024 + 1 * q.val = q.val; omega
  · intro r q
    show V m c main_arg2 (((cfg0.win 2).blk t).view.emb (ix2 r q)) = V m c main_arg2 (ix2 (ownCol (grid0.coords t) r) q)
    refine congrArg _ (funext fun a => Fin.ext ?_)
    match a with
    | ⟨0, _⟩ =>
      show win0_2.index t (0 : Fin 2) * 128 + 1 * r.val = 128 * (grid0.coords t 0).val + r.val; omega
    | ⟨1, _⟩ => show win0_2.index t (1 : Fin 2) * 1024 + 1 * q.val = q.val; omega
  · show _ = outArr (V m c main_arg0) (V m c main_arg1) (V m c main_arg2) (((cfg0.win 3).blk t).view.emb (ix1 i'))
    unfold outArr
    congr 1
    refine Fin.ext ?_
    show 128 * (grid0.coords t 0).val + i'.val = win0_3.index t (0 : Fin 1) * 128 + 1 * i'.val
    omega

/-- An entry of the output array is in point `t`'s block iff it lies in the block's range. -/
theorem mem_blk (t : Fin cfg0.N) (i : S1024.Idx) :
    i ∈ ((cfg0.win 3).blk t).view.set ↔ ∀ a : Fin 1, win0_3.index t a * S128.size a ≤ (i a).val
      ∧ (i a).val < win0_3.index t a * S128.size a + S128.size a := by
  show i ∈ ((View.whole main_v0).slice (win0_3.rect t)).set ↔ _
  rw [View.set_slice_whole, Rect.mem_set_unit]
  exact Iff.rfl

/-- Every entry is in some point's block: entry `i` in the block of point `i / 128`. -/
theorem cover (i : S1024.Idx) :
    ∃ t : Fin cfg0.N, (cfg0.win 3).flush t = true ∧ i ∈ ((cfg0.win 3).blk t).view.set := by
  have hi : (i 0).val < 1024 := (i 0).isLt
  have hN : (i 0).val / 128 < cfg0.N := by show (i 0).val / 128 < 8; omega
  refine ⟨⟨(i 0).val / 128, hN⟩, flush0_3 _, ?_⟩
  rw [mem_blk]
  obtain ⟨-, -, -, -, -, -, e30, et⟩ := idx_facts ⟨(i 0).val / 128, hN⟩
  intro a
  match a with
  | ⟨0, _⟩ =>
    show win0_3.index ⟨(i 0).val / 128, hN⟩ (0 : Fin 1) * 128 ≤ (i 0).val
      ∧ (i 0).val < win0_3.index ⟨(i 0).val / 128, hN⟩ (0 : Fin 1) * 128 + 128
    rw [e30, et]
    show (i 0).val / 128 * 128 ≤ (i 0).val ∧ (i 0).val < (i 0).val / 128 * 128 + 128
    omega

/-- THE ARRAY after the run: `outArr` of the argument arrays. -/
theorem final (c : Dev nD) :
    (dats m 0 c).arrAt 3 cfg0.N = outArr (V m c main_arg0) (V m c main_arg1) (V m c main_arg2) :=
  (dats m 0 c).arrAt_eq_of_cover 3 _ (fun t _ => flushed_eq m c t) cover

end Cert.KernelIdeal.ArrayValue

end
-- ==== Proof.KernelRun.lean ====
/-
  The idealized kernel's run, with its result named.

  After the region the host adds the 1024 entries of the output array up from zero and divides by 131072. With the
  array known (`ArrayValue.final`) the result buffer ends at `result x y mask`: the column sums added up and divided
  by the count (`tail_value`), and the run's post says so, with the three arguments unchanged (`run`).
-/
import proofs.«169434_j22625887715478_2_alg».proof.Proof.ArrayValue
import proofs.«169434_j22625887715478_2_alg».proof.Proof.Consts
import Idealize.ShloMosaic.Lib.StableHlo.Run
import Idealize.ShloMosaic.PureOps.Ideal.Laws

set_option maxRecDepth 16384

noncomputable section

namespace Cert.KernelIdeal.KernelRun

open Cert.KernelIdeal Cert.KernelIdeal.Gen Cert.KernelIdeal.ArrayValue
open Idealize.ShloMosaic Idealize.ShloMosaic.TcCoe Idealize.ShloMosaic.Tactic Idealize.ShloMosaic.StableHlo
open Idealize.ShloMosaic.ValueIdx
open Idealize.SL Idealize.SL.Sem
open Idealize.ShloMosaic.Pipeline (Dat Cfg Window)
open scoped BigOperators

/-- The kernel's result: the column sums added up from zero, divided by the number of entries. -/
def result (x y : Cert.Target.Rows) (mk : Cert.Target.Square) : EReal :=
  Ideal.div (0 + ∑ i : Fin 1024, Cert.Target.colSum x y mk i) ((131072 : ℝ) : EReal)

/-- A sum over a rank-1 index set is the sum over its one coordinate. -/
theorem sum_idx1 {M : Type} [AddCommMonoid M] {n : Nat} (f : (⟨1, ![n]⟩ : Shape).Idx → M) :
    ∑ i, f i = ∑ a : Fin n, f (ix1 a) := by
  let e : (⟨1, ![n]⟩ : Shape).Idx ≃ Fin n := ⟨fun i => i 0, ix1, fun i => (eq_ix1 i).symm, fun _ => rfl⟩
  rw [← Equiv.sum_comp e.symm f]
  rfl

/-- The host's sum of a 1024-entry array from zero, divided by 131072, at the one index of the scalar. -/
theorem mean_apply (G : S1024.Idx → EReal) (h' : S1024.ReducesTo [0] S_) (hu : 0 < S_.numel) (j : S_.Idx) :
    Host.divf (F := Ideal) (Host.reduceAdd (F := Ideal) G (constant (F := Ideal) S_ .f32 0x00000000#32) h' hu)
        (constant (F := Ideal) S_ .f32 0x48000000#32) j
      = Ideal.div (0 + ∑ i : Fin 1024, G (ix1 i)) ((131072 : ℝ) : EReal) := by
  show FloatOps.hostDivf (Host.reduceAdd (F := Ideal) G (constant (F := Ideal) S_ .f32 0x00000000#32) h' hu j)
      (FloatOps.ofBits (F := Ideal) .f32 0x48000000#32) = _
  simp only [Host.reduceAdd, Ideal.hostReduceAdd_def, Ideal.hostDivf_def, Ideal.ofBits_def]
  rw [Ideal.hostReduceAdd_total h' (fun b => b.elim0), Cert.Consts.ofBits_count, sum_idx1]
  congr 2
  exact Cert.Consts.ofBits_zero

variable (m : (ℓ : Loc nD τ sig) → Buf (Elt Ideal) ℓ) (ρ : Dev nD → PrngReg)

/-- What the lines after the region leave in the result buffer. -/
theorem tail_value (c : Dev nD) :
    Pipeline.afterTail₀ cfgs (dats (F := Ideal) m) 0 (V0 m) [hostOps1] c main_v2
      = fun _ => result (V m c main_arg0) (V m c main_arg1) (V m c main_arg2) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v0)
      = outArr (V m c main_arg0) (V m c main_arg1) (V m c main_arg2) :=
    (Pipeline.withArrays_arr spec0 launch0.win.arr_inj c _ _ 3).trans (final m c)
  rw [hw]
  funext j
  rw [mean_apply]
  rfl

/-- THE RUN: every weakly fair execution terminates with the result buffer at `result` of the argument arrays and
    the arguments unchanged. -/
theorem run : θ_run defs (onTc (τ := τ) (main (F := Ideal))) ⟨m, fun _ => 0, ρ⟩ (fun r => ∀ c : Dev nD,
      r.2.mem ((c.tc : Thread nD τ).loc main_v2)
          = (fun _ => result (m ((c.tc : Thread nD τ).loc main_arg0)) (m ((c.tc : Thread nD τ).loc main_arg1))
              (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨((h c).2 main_v2 (Pipeline.mem_restRefs_of main_v2 rfl (fun w => by fin_cases w <;> decide))).trans (tail_value m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c))),
        ((h c).1 2).trans (((dats m 0 c).arrAt_in 2 rfl _).trans ((A_eq m c 2).trans (V_main_arg2 m c)))⟩)
    (run_main m ρ)

end Cert.KernelIdeal.KernelRun

end
-- ==== Proof.RefValue.lean ====
/-
  The reference, read at an index against `Target`.

  Its program is a line of host operations; the generated reading lemmas take each at an index. Written here: the
  two broadcasts compose to "row b of x²·y against row i of the mask" (`prod_apply`), the max-reduce over the last
  axis started from −∞ is the supremum over the 1024 columns (`masked_apply`), `%12` is `xp` (`mixed_apply`), the
  summand `%29` is the loss entry in the reference's spelling (`loss_apply`), and the result is the sum of all
  entries divided by the count and negated (`result_eq`).
-/
import proofs.«169434_j22625887715478_2_alg».proof.Proof.Gen.ReferenceIdeal.Read
import proofs.«169434_j22625887715478_2_alg».proof.Proof.Target
import proofs.«169434_j22625887715478_2_alg».proof.Proof.Consts
import Idealize.ShloMosaic.Lib.ValueIdx
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem
open Cert.Spec (lossR mix)
open scoped BigOperators

variable (x y : (⟨S128x1024, .f32⟩ : BufTy).Contents (Elt Ideal)) (m : (⟨S1024x1024, .f32⟩ : BufTy).Contents (Elt Ideal))

theorem idx_rows (b : Fin 128) (i j : Fin 1024) : idx_main_v2 (idx_main_v4 (ix3 b i j)) = ix2 b j :=
  funext fun a => by match a with | ⟨0, _⟩ => rfl | ⟨1, _⟩ => rfl

theorem idx_mask (b : Fin 128) (i j : Fin 1024) : idx_main_v3 (idx_main_v5 (ix3 b i j)) = ix2 i j :=
  funext fun a => by match a with | ⟨0, _⟩ => rfl | ⟨1, _⟩ => rfl

/-- The three-axis product at `(b, i, j)`. -/
theorem prod_apply (b : Fin 128) (i j : Fin 1024) :
    val_main_v6 (F := Ideal) x y m (ix3 b i j) = Cert.Target.prod x y m b i j := by
  rw [val_main_v6_apply, val_main_v4_apply, val_main_v5_apply, val_main_v2_apply, val_main_v3_apply, idx_rows, idx_mask,
    val_main_v1_apply, val_main_v0_apply]
  rfl

set_option backward.isDefEq.respectTransparency.types false in
/-- The max-reduce over the last axis, started from −∞, at `(b, i)`: the supremum of the products over the columns. -/
theorem masked_apply (b : Fin 128) (i : Fin 1024) :
    val_main_v7 (F := Ideal) x y m (ix2 b i) = Cert.Target.masked x y m b i := by
  have h : S128x1024x1024.Reduces [2] S128x1024 := by decide
  have hl : ∀ j : Fin 1024, h.lift (ix2 b i) j = ix3 b i j := fun j => funext fun d => by
    match d with
    | ⟨0, _⟩ => exact Fin.ext rfl
    | ⟨1, _⟩ => exact Fin.ext rfl
    | ⟨2, _⟩ => exact Fin.ext rfl
  have hinit : val_main_cst (F := Ideal) (Shape.Idx.first h_S_) = (⊥ : EReal) := Cert.Consts.ofBits_neg_inf
  unfold val_main_v7
  rw [Host.reduce_eq_fold_single FloatOps.maximumf _ _ _ h h_S_, hinit]
  refine (Cert.Spec.fold_max_bot Finset.univ (val_main_v6 (F := Ideal) x y m ∘ h.lift (ix2 b i))).trans ?_
  unfold Cert.Target.masked
  exact Finset.sup_congr rfl fun j _ => by
    show val_main_v6 (F := Ideal) x y m (h.lift (ix2 b i) j) = _
    rw [hl j, prod_apply]

theorem one_eq : (FloatOps.ofBits (F := Ideal) .f32 0x3F800000#32) = (1 : EReal) := Cert.Consts.ofBits_one
theorem zero_eq : (FloatOps.ofBits (F := Ideal) .f32 0x00000000#32) = ((0 : ℝ) : EReal) := by
  rw [EReal.coe_zero]; exact Cert.Consts.ofBits_zero
theorem four_eq : (FloatOps.ofBits (F := Ideal) .f32 0x40800000#32) = ((4 : ℝ) : EReal) := Cert.Consts.ofBits_four

/-- `%12`, the reference's `xp`, at `(b, i)`. -/
theorem mixed_apply (b : Fin 128) (i : Fin 1024) :
    val_main_v12 (F := Ideal) x y m (ix2 b i) = Cert.Target.mixed x y m b i := by
  rw [val_main_v12_apply, val_main_v10_apply, val_main_v11_apply, val_main_v9_apply, val_main_v8_apply,
    val_main_cst_0_apply, masked_apply, one_eq]
  rfl

/-- `%29`, the summand, at `(b, i)`: the loss entry in the reference's spelling. -/
theorem loss_apply (b : Fin 128) (i : Fin 1024) :
    val_main_v29 (F := Ideal) x y m (ix2 b i)
      = lossR (x (ix2 b i)) (y (ix2 b i)) (Cert.Target.masked x y m b i) := by
  rw [val_main_v29_apply, val_main_v19_apply, val_main_v28_apply, val_main_v17_apply, val_main_v18_apply,
    val_main_v24_apply, val_main_v27_apply, val_main_v16_apply, val_main_v21_apply, val_main_v23_apply,
    val_main_v26_apply, val_main_v14_apply, val_main_v15_apply, val_main_v22_apply, val_main_v13_apply,
    val_main_v20_apply, val_main_v25_apply, val_main_cst_1_apply, val_main_cst_2_apply, val_main_cst_3_apply,
    val_main_cst_4_apply, val_main_cst_5_apply, mixed_apply, one_eq, zero_eq, four_eq]
  rfl

/-- THE RESULT: all 128 × 1024 loss entries added up from zero, divided by their count, negated. -/
theorem result_eq (j : S_.Idx) :
    val_main_v32 (F := Ideal) x y m j
      = -(Ideal.div (0 + ∑ b : Fin 128, ∑ i : Fin 1024,
            lossR (x (ix2 b i)) (y (ix2 b i)) (Cert.Target.masked x y m b i)) ((131072 : ℝ) : EReal)) := by
  rw [val_main_v32_apply, val_main_v31_apply, val_main_v30_apply, val_main_cst_6_apply, val_main_cst_7_apply,
    Ideal.hostNegf_def, Ideal.negf_def, Ideal.hostDivf_def, Ideal.ofBits_def, Ideal.ofBits_def,
    Cert.Consts.ofBits_zero, Cert.Consts.ofBits_count, sum_idx2]
  simp only [loss_apply]

end Cert.ReferenceIdeal.RefValue

end
-- ==== Proof.PreDomain.lean ====
/-
  What the precondition says of the three arrays.

  The precondition is the conjunction of five "all entries" tests: the absolute values of the probabilities, of the
  labels and of the mask are below +∞, and the reference's own `xp` is above 0 and below 1 at every entry. Used
  here: the labels' test (a label whose absolute value is below +∞ is a real number) and the two tests on `xp` (an
  extended real strictly between 0 and 1 is a real number in that interval). Together: `Target.InDomain`.
-/
import proofs.«169434_j22625887715478_2_alg».proof.Pre_finite_inputs
import proofs.«169434_j22625887715478_2_alg».proof.Proof.Gen.Pre_finite_inputs
import proofs.«169434_j22625887715478_2_alg».proof.Proof.RefValue
import Idealize.ShloMosaic.Lib.ReduceAll
import Idealize.ShloMosaic.Lib.Affine

set_option maxRecDepth 16384

noncomputable section

namespace Cert.PreDomain

open Idealize.ShloMosaic Idealize.ShloMosaic.TcCoe Idealize.ShloMosaic.ValueIdx
open Idealize.SL Idealize.SL.Sem

instance : Subsingleton Cert.Pre_finite_inputs.S_.Idx := ⟨fun a b => funext fun d => d.elim0⟩

theorem ofBool_eq_one {b : Bool} (h : BitVec.ofBool b = 1#1) : b = true := by
  cases b
  · exact absurd h (by decide)
  · rfl

/-- An extended real whose absolute value is below +∞ is a real number. -/
theorem real_of_abs_lt_top {a : EReal} (h : max a (-a) < ⊤) : ∃ s : ℝ, a = (s : EReal) := by
  have h1 : a ≠ ⊤ := fun e => by rw [e] at h; exact absurd h (by simp)
  have h2 : a ≠ ⊥ := fun e => by rw [e] at h; exact absurd h (by simp)
  exact ⟨a.toReal, (EReal.coe_toReal h1 h2).symm⟩

/-- An extended real strictly between 0 and 1 is a real number strictly between 0 and 1. -/
theorem real_of_between {a : EReal} (h0 : 0 < a) (h1 : a < 1) : ∃ r : ℝ, a = (r : EReal) ∧ 0 < r ∧ r < 1 := by
  have ht : a ≠ ⊤ := fun e => by rw [e] at h1; exact absurd h1 (by simp)
  have hb : a ≠ ⊥ := fun e => by rw [e] at h0; exact absurd h0 (by simp)
  have e : a = ((a.toReal : ℝ) : EReal) := (EReal.coe_toReal ht hb).symm
  refine ⟨a.toReal, e, ?_, ?_⟩
  · rw [e] at h0; exact_mod_cast h0
  · rw [e] at h1; exact_mod_cast h1

/-- THE DOMAIN: where the precondition holds the labels are real and the reference's `xp` lies strictly between 0 and 1. -/
theorem domain_of_pre [Cert.Pre_finite_inputs.Facts] [Cert.ReferenceIdeal.Facts]
    (x y : FVec Ideal Cert.Pre_finite_inputs.S128x1024 .f32) (mk : FVec Ideal Cert.Pre_finite_inputs.S1024x1024 .f32)
    (h : Cert.Pre_finite_inputs.fn (F := Ideal) x y mk = fun _ => 1#1) : Cert.Target.InDomain x y mk := by
  have e := congrFun h ValueIdx.ix0
  dsimp only [Cert.Pre_finite_inputs.fn, Cert.Pre_finite_inputs.fn_part1] at e
  obtain ⟨e1234, e5⟩ := IntOp.andi_eq_one.mp e
  obtain ⟨e123, e4⟩ := IntOp.andi_eq_one.mp e1234
  obtain ⟨e12, -⟩ := IntOp.andi_eq_one.mp e123
  obtain ⟨-, e2⟩ := IntOp.andi_eq_one.mp e12
  refine ⟨fun b i => ?_, fun b i => ?_⟩
  · have t := Host.reduce_andi_all _ _ _ _ ValueIdx.ix0 e2 (ix2 b i)
    change Ideal.cmp .olt (max (y (ix2 b i)) (-(y (ix2 b i)))) (Ideal.ofBits .f32 0x7F800000#32) = 1#1 at t
    rw [Cert.Consts.ofBits_pos_inf] at t
    exact real_of_abs_lt_top (of_decide_eq_true (ofBool_eq_one t))
  · have t0 := Host.reduce_andi_all _ _ _ _ ValueIdx.ix0 e4 (ix2 b i)
    have t1 := Host.reduce_andi_all _ _ _ _ ValueIdx.ix0 e5 (ix2 b i)
    change Ideal.cmp .ogt (Cert.ReferenceIdeal.Read.val_main_v12 (F := Ideal) x y mk (ix2 b i)) (Ideal.ofBits .f32 0x00000000#32) = 1#1 at t0
    change Ideal.cmp .olt (Cert.ReferenceIdeal.Read.val_main_v12 (F := Ideal) x y mk (ix2 b i)) (Ideal.ofBits .f32 0x3F800000#32) = 1#1 at t1
    rw [Cert.ReferenceIdeal.RefValue.mixed_apply, Cert.Consts.ofBits_zero] at t0
    rw [Cert.ReferenceIdeal.RefValue.mixed_apply, Cert.Consts.ofBits_one] at t1
    exact real_of_between (of_decide_eq_true (ofBool_eq_one t0)) (of_decide_eq_true (ofBool_eq_one t1))

end Cert.PreDomain

end
-- ==== Proof.lean ====
/-
  The kernel and its reference compute one number: minus the mean, over the 128 × 1024 entries, of an asymmetric
  focal loss.

  For probabilities x and labels y (128 × 1024) and a mask m (1024 × 1024), both programs form, for batch row b and
  column i, the masked maximum  max_j x[b,j]²·y[b,j]·m[i,j]  (from −∞), mix it with x by the label,
  xp = (1 − y)·x + y·max, and take the entry  y·log xp + (1 − y)·xp⁴·log(1 − xp).
    * The kernel walks the columns in eight chunks of 128 keeping an entrywise running maximum, then takes the maximum
      over the lanes; the reference reduces over all 1024 columns at once. Either is the supremum of the same 1024
      products (Proof/RunningMax, Proof/BlockValue, Proof/ArrayValue on one side, Proof/RefValue on the other;
      Proof/Spec has the lattice facts). No precondition is used for this.
    * The kernel squares twice and omits the factor (1 − xp)⁰; the reference calls the power function for both. For a real
      xp these agree (Proof/Spec).
    * The kernel negates every entry, sums each column over the batch, and the host sums the 1024 columns and
      divides by 131072; the reference sums all entries, divides, and negates once. On the extended reals a sum that
      holds both infinities does not commute with negation, so this is where the precondition is used: it makes every
      label real and keeps 0 < xp < 1 (Proof/PreDomain), hence every entry a real number, and for real entries the
      two results are the same real number (Proof/Target `means_agree`).
  The three frames are the generated ones (the reference's is its generated run with the result dropped); the ideal
  pass rewrote nothing, so the idealization claim is trivial.
-/
import proofs.«169434_j22625887715478_2_alg».proof.Defs
import proofs.«169434_j22625887715478_2_alg».proof.Proof.Gen.Kernel
import proofs.«169434_j22625887715478_2_alg».proof.Proof.Gen.Kernel.Skeleton
import proofs.«169434_j22625887715478_2_alg».proof.Proof.Gen.Kernel.Loops
import proofs.«169434_j22625887715478_2_alg».proof.Proof.Gen.Kernel.Launch
import proofs.«169434_j22625887715478_2_alg».proof.Proof.Gen.Kernel.Points
import proofs.«169434_j22625887715478_2_alg».proof.Proof.Gen.Kernel.Frame
import proofs.«169434_j22625887715478_2_alg».proof.Proof.Gen.KernelIdeal
import proofs.«169434_j22625887715478_2_alg».proof.Proof.Gen.KernelIdeal.Skeleton
import proofs.«169434_j22625887715478_2_alg».proof.Proof.Gen.KernelIdeal.Loops
import proofs.«169434_j22625887715478_2_alg».proof.Proof.Gen.KernelIdeal.Launch
import proofs.«169434_j22625887715478_2_alg».proof.Proof.Gen.KernelIdeal.Points
import proofs.«169434_j22625887715478_2_alg».proof.Proof.Gen.KernelIdeal.Frame
import proofs.«169434_j22625887715478_2_alg».proof.Proof.Gen.ReferenceIdeal
import proofs.«169434_j22625887715478_2_alg».proof.Proof.Gen.Pre_finite_inputs
import proofs.«169434_j22625887715478_2_alg».proof.Proof.Gen.ReferenceIdeal.Run
import proofs.«169434_j22625887715478_2_alg».proof.Proof.Gen.ReferenceIdeal.Read
import proofs.«169434_j22625887715478_2_alg».proof.Proof.KernelRun
import proofs.«169434_j22625887715478_2_alg».proof.Proof.RefValue
import proofs.«169434_j22625887715478_2_alg».proof.Proof.PreDomain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the three arrays, under the precondition, the kernel's result buffer ends at the mean of
    its column sums (`KernelRun.run`) and the reference's at the negated mean of all entries (its generated run read
    by `RefValue.result_eq`); on the precondition's domain these are one extended real (`Target.means_agree`). -/
theorem algebraic : Cert.algebraic_KernelIdeal_ReferenceIdeal := by
  intro m ρ m' ρ' hpre hagree
  refine ⟨fun c _ => Cert.KernelIdeal.KernelRun.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v32_eq, (hagree c).1, (hagree c).2.1, (hagree c).2.2]
  funext j
  rw [Cert.ReferenceIdeal.RefValue.result_eq]
  exact (Cert.Target.means_agree _ _ _ (Cert.PreDomain.domain_of_pre _ _ _ (hpre c))).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
